-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_

variable [Facts]

def fn {F : FTy → Type} [FloatOps F] (main_arg0 : FVec F S1x256x512x512 .f32) (main_arg1 : FVec F S256x256x3x3 .f32) (main_arg2 : IVec S9x65536 32) (main_arg3 : IVec S9x65536 32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256x256x3x3 .f32 := Host.absf main_arg1
  let main_cst_0 : FVec F S_ .f32 := constant S_ .f32 0x7F800000#32
  let main_v5 : FVec F S256x256x3x3 .f32 := broadcastInDim S256x256x3x3 ![] bcast_S_S256x256x3x3 main_cst_0
  let main_v6 : IVec S256x256x3x3 1 := cmpf .olt main_v4 main_v5
  let main_c_1 : IVec S_ 1 := constantI S_ 1 1#1
  let main_v7 : IVec S_ 1 := (fun x v => Host.reduce IntOp.andi x v reducesTo_S256x256x3x3_S_d0_1_2_3 h_S_) main_v6 main_c_1
  let main_v8 : IVec S_ 1 := andi main_v3 main_v7
  main_v8
-- ==== Kernel.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S256x512x512 : Shape := ⟨3, ![256, 512, 512]⟩
abbrev S512x512x256 : Shape := ⟨3, ![512, 512, 256]⟩
abbrev S_ : Shape := ⟨0, ![]⟩
abbrev S514x514x256 : Shape := ⟨3, ![514, 514, 256]⟩
abbrev S65536x9 : Shape := ⟨2, ![65536, 9]⟩
abbrev S65536x9x1 : Shape := ⟨3, ![65536, 9, 1]⟩
abbrev S65536x9x2 : Shape := ⟨3, ![65536, 9, 2]⟩
abbrev S65536x9x256 : Shape := ⟨3, ![65536, 9, 256]⟩
abbrev S65536x2304 : Shape := ⟨2, ![65536, 2304]⟩
abbrev S3x3x256x256 : Shape := ⟨4, ![3, 3, 256, 256]⟩
abbrev S2304x256 : Shape := ⟨2, ![2304, 256]⟩
abbrev S65536x256 : Shape := ⟨2, ![65536, 256]⟩
abbrev S2048x2304 : Shape := ⟨2, ![2048, 2304]⟩
abbrev S2048x256 : Shape := ⟨2, ![2048, 256]⟩
abbrev S256x65536 : Shape := ⟨2, ![256, 65536]⟩

abbrev nBuf : Space → Nat
  | .hbm => 36
  | .vmem => 5
  | .smem => 0
  | _ => 0

abbrev bufTy : (tb : Table) → Fin (tcTables nBuf tb) → BufTy
  | .hbm, ⟨0, _⟩ => ⟨S1x256x512x512, .f32⟩
  | .hbm, ⟨1, _⟩ => ⟨S256x256x3x3, .f32⟩
  | .hbm, ⟨2, _⟩ => ⟨S9x65536, .i32⟩
  | .hbm, ⟨3, _⟩ => ⟨S9x65536, .i32⟩
  | .hbm, ⟨4, _⟩ => ⟨S256x512x512, .f32⟩
  | .hbm, ⟨5, _⟩ => ⟨S512x512x256, .f32⟩
  | .hbm, ⟨6, _⟩ => ⟨S_, .i32⟩
  | .hbm, ⟨7, _⟩ => ⟨S_, .f32⟩
  | .hbm, ⟨8, _⟩ => ⟨S514x514x256, .f32⟩
  | .hbm, ⟨9, _⟩ => ⟨S514x514x256, .bf16⟩
  | .hbm, ⟨10, _⟩ => ⟨S65536x9, .i32⟩
  | .hbm, ⟨11, _⟩ => ⟨S65536x9, .i32⟩
  | .hbm, ⟨12, _⟩ => ⟨S_, .i32⟩
  | .hbm, ⟨13, _⟩ => ⟨S65536x9, .i32⟩
  | .hbm, ⟨14, _⟩ => ⟨S65536x9, .i1⟩
  | .hbm, ⟨15, _⟩ => ⟨S_, .i32⟩
  | .hbm, ⟨16, _⟩ => ⟨S65536x9, .i32⟩
  | .hbm, ⟨17, _⟩ => ⟨S65536x9, .i32⟩
  | .hbm, ⟨18, _⟩ => ⟨S65536x9, .i32⟩
  | .hbm, ⟨19, _⟩ => ⟨S_, .i32⟩
  | .hbm, ⟨20, _⟩ => ⟨S65536x9, .i32⟩
  | .hbm, ⟨21, _⟩ => ⟨S65536x9, .i1⟩
  | .hbm, ⟨22, _⟩ => ⟨S_, .i32⟩
  | .hbm, ⟨23, _⟩ => ⟨S65536x9, .i32⟩
  | .hbm, ⟨24, _⟩ => ⟨S65536x9, .i32⟩
  | .hbm, ⟨25, _⟩ => ⟨S65536x9, .i32⟩
  | .hbm, ⟨26, _⟩ => ⟨S65536x9x1, .i32⟩
  | .hbm, ⟨27, _⟩ => ⟨S65536x9x1, .i32⟩
  | .hbm, ⟨28, _⟩ => ⟨S65536x9x2, .i32⟩
  | .hbm, ⟨29, _⟩ => ⟨S65536x9x256, .bf16⟩
  | .hbm, ⟨30, _⟩ => ⟨S65536x2304, .bf16⟩
  | .hbm, ⟨31, _⟩ => ⟨S3x3x256x256, .f32⟩
  | .hbm, ⟨32, _⟩ => ⟨S2304x256, .f32⟩
  | .hbm, ⟨33, _⟩ => ⟨S2304x256, .bf16⟩
  | .hbm, ⟨34, _⟩ => ⟨S65536x256, .f32⟩
  | .hbm, ⟨35, _⟩ => ⟨S256x65536, .f32⟩
  | .local _ .vmem, ⟨0, _⟩ => ⟨S2048x2304, .bf16⟩
  | .local _ .vmem, ⟨1, _⟩ => ⟨S2048x2304, .bf16⟩
  | .local _ .vmem, ⟨2, _⟩ => ⟨S2304x256, .bf16⟩
  | .local _ .vmem, ⟨3, _⟩ => ⟨S2048x256, .f32⟩
  | .local _ .vmem, ⟨4, _⟩ => ⟨S2048x256, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x256x512x512_S256x512x512 : S1x256x512x512.ShapeCasts S256x512x512
  transposes_S256x512x512_S512x512x256_1_2_0 : S256x512x512.Transposes [1, 2, 0] S512x512x256
  pads_S512x512x256_S514x514x256_110_110_000 : S512x512x256.Pads (![1, 1, 0] : Fin 3 → Nat) ![1, 1, 0] ![0, 0, 0] S514x514x256
  h_S_ : 0 < S_.numel
  bitsLt_bf16_f32 : FTy.bits .bf16 < FTy.bits .f32
  transposes_S9x65536_S65536x9_1_0 : S9x65536.Transposes [1, 0] S65536x9
  bcast_S_S65536x9 : S_.BroadcastsInDim S65536x9 (![] : Fin 0 → Fin S65536x9.rank)
  bcast_S65536x9_S65536x9x1_0_1 : S65536x9.BroadcastsInDim S65536x9x1 (![0, 1] : Fin 2 → Fin S65536x9x1.rank)
  concatenates_S65536x9x1_S65536x9x1_S65536x9x2_d2 : Shape.Concatenates [S65536x9x1, S65536x9x1] S65536x9x2 2
  shapeCasts_S65536x9x256_S65536x2304 : S65536x9x256.ShapeCasts S65536x2304
  transposes_S256x256x3x3_S3x3x256x256_2_3_1_0 : S256x256x3x3.Transposes [2, 3, 1, 0] S3x3x256x256
  shapeCasts_S3x3x256x256_S2304x256 : S3x3x256x256.ShapeCasts S2304x256
  inb_S2048x2304_S2048x2304_0_0 : ∀ a, (![0, 0] : Fin 2 → Nat) a + S2048x2304.size a ≤ S2048x2304.size a
  h_S2048x2304 : 0 < S2048x2304.numel
  shapeCasts_S2048x2304_S2048x2304 : S2048x2304.ShapeCasts S2048x2304
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  inb_S2048x256_S2048x256_0_0 : ∀ a, (![0, 0] : Fin 2 → Nat) a + S2048x256.size a ≤ S2048x256.size a
  h_S2048x256 : 0 < S2048x256.numel
  transposes_S65536x256_S256x65536_1_0 : S65536x256.Transposes [1, 0] S256x65536
  gather_S514x514x256_S65536x9x2_S65536x9x256_2_01_n_n_01_2_11256_wf : GatherDims.WF S514x514x256 S65536x9x2 S65536x9x256 [2] [0, 1] [] [0, 1] [] 2 ![1, 1, 256]
  dot_S2048x2304_S2304x256_S2048x256_1_0_0_1_n_n_wf : DotDims.WF S2048x2304 S2304x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2304.size a ≤ S65536x2304.size a
  hwx0_0 : ∀ i : grid0.Coords, EltTy.bits .bf16 = 32 ∨ (Rect.block (s := S65536x2304) S2048x2304.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x256.size a ≤ S2304x256.size a
  hwx0_1 : ∀ i : grid0.Coords, EltTy.bits .bf16 = 32 ∨ (Rect.block (s := S2304x256) S2304x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)

variable [Facts₀]

def gather_S514x514x256_S65536x9x2_S65536x9x256_2_01_n_n_01_2_11256 : GatherDims S514x514x256 S65536x9x2 S65536x9x256 where
  offsetDims := [2]
  collapsedSliceDims := [0, 1]
  operandBatchingDims := []
  startIndicesBatchingDims := []
  startIndexMap := [0, 1]
  indexVectorDim := 2
  sliceSizes := ![1, 1, 256]
  wf := gather_S514x514x256_S65536x9x2_S65536x9x256_2_01_n_n_01_2_11256_wf
def dot_S2048x2304_S2304x256_S2048x256_1_0_0_1_n_n : DotDims S2048x2304 S2304x256 S2048x256 where
  lhsContracting := [1]
  rhsContracting := [0]
  lhsNonContracting := [0]
  rhsNonContracting := [1]
  lhsBatch := []
  rhsBatch := []
  wf := dot_S2048x2304_S2304x256_S2048x256_1_0_0_1_n_n_wf

abbrev win0_0 : Pipeline.Window sig grid0 :=
  Pipeline.Window.ofSpec (Memref.whole main_v20) S2048x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2304x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x512x512 : Shape := ⟨4, ![1, 256, 512, 512]⟩
abbrev S256x256x3x3 : Shape := ⟨4, ![256, 256, 3, 3]⟩
abbrev S9x65536 : Shape := ⟨2, ![9, 65536]⟩
abbrev S_ : Shape := ⟨0, ![]⟩
abbrev S1x256x514x514 : Shape := ⟨4, ![1, 256, 514, 514]⟩
abbrev S256x514x514 : Shape := ⟨3, ![256, 514, 514]⟩
abbrev S9x65536x1 : Shape := ⟨3, ![9, 65536, 1]⟩
abbrev S9x65536x2 : Shape := ⟨3, ![9, 65536, 2]⟩
abbrev S256x9x65536 : Shape := ⟨3, ![256, 9, 65536]⟩
abbrev S2304x65536 : Shape := ⟨2, ![2304, 65536]⟩
abbrev S256x2304 : Shape := ⟨2, ![256, 2304]⟩
abbrev S256x65536 : Shape := ⟨2, ![256, 65536]⟩

abbrev nBuf : Space → Nat
  | .hbm => 29
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256x256x3x3, .f32⟩
  | .hbm, ⟨2, _⟩ => ⟨S9x65536, .i32⟩
  | .hbm, ⟨3, _⟩ => ⟨S9x65536, .i32⟩
  | .hbm, ⟨4, _⟩ => ⟨S_, .i32⟩
  | .hbm, ⟨5, _⟩ => ⟨S_, .f32⟩
  | .hbm, ⟨6, _⟩ => ⟨S1x256x514x514, .f32⟩
  | .hbm, ⟨7, _⟩ => ⟨S256x514x514, .f32⟩
  | .hbm, ⟨8, _⟩ => ⟨S_, .i32⟩
  | .hbm, ⟨9, _⟩ => ⟨S9x65536, .i32⟩
  | .hbm, ⟨10, _⟩ => ⟨S9x65536, .i1⟩
  | .hbm, ⟨11, _⟩ => ⟨S_, .i32⟩
  | .hbm, ⟨12, _⟩ => ⟨S9x65536, .i32⟩
  | .hbm, ⟨13, _⟩ => ⟨S9x65536, .i32⟩
  | .hbm, ⟨14, _⟩ => ⟨S9x65536, .i32⟩
  | .hbm, ⟨15, _⟩ => ⟨S_, .i32⟩
  | .hbm, ⟨16, _⟩ => ⟨S9x65536, .i32⟩
  | .hbm, ⟨17, _⟩ => ⟨S9x65536, .i1⟩
  | .hbm, ⟨18, _⟩ => ⟨S_, .i32⟩
  | .hbm, ⟨19, _⟩ => ⟨S9x65536, .i32⟩
  | .hbm, ⟨20, _⟩ => ⟨S9x65536, .i32⟩
  | .hbm, ⟨21, _⟩ => ⟨S9x65536, .i32⟩
  | .hbm, ⟨22, _⟩ => ⟨S9x65536x1, .i32⟩
  | .hbm, ⟨23, _⟩ => ⟨S9x65536x1, .i32⟩
  | .hbm, ⟨24, _⟩ => ⟨S9x65536x2, .i32⟩
  | .hbm, ⟨25, _⟩ => ⟨S256x9x65536, .f32⟩
  | .hbm, ⟨26, _⟩ => ⟨S2304x65536, .f32⟩
  | .hbm, ⟨27, _⟩ => ⟨S256x2304, .f32⟩
  | .hbm, ⟨28, _⟩ => ⟨S256x65536, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  pads_S1x256x512x512_S1x256x514x514_000_000_110_110 : S1x256x512x512.Pads (![0, 0, 1, 1] : Fin 4 → Nat) ![0, 0, 1, 1] ![0, 0, 0, 0] S1x256x514x514
  h_S_ : 0 < S_.numel
  shapeCasts_S1x256x514x514_S256x514x514 : S1x256x514x514.ShapeCasts S256x514x514
  bcast_S_S9x65536 : S_.BroadcastsInDim S9x65536 (![] : Fin 0 → Fin S9x65536.rank)
  bcast_S9x65536_S9x65536x1_0_1 : S9x65536.BroadcastsInDim S9x65536x1 (![0, 1] : Fin 2 → Fin S9x65536x1.rank)
  concatenates_S9x65536x1_S9x65536x1_S9x65536x2_d2 : Shape.Concatenates [S9x65536x1, S9x65536x1] S9x65536x2 2
  shapeCasts_S256x9x65536_S2304x65536 : S256x9x65536.ShapeCasts S2304x65536
  shapeCasts_S256x256x3x3_S256x2304 : S256x256x3x3.ShapeCasts S256x2304
  gather_S256x514x514_S9x65536x2_S256x9x65536_0_12_n_n_12_2_25611_wf : GatherDims.WF S256x514x514 S9x65536x2 S256x9x65536 [0] [1, 2] [] [1, 2] [] 2 ![256, 1, 1]
  dot_S256x2304_S2304x65536_S256x65536_1_0_0_1_n_n_wf : DotDims.WF S256x2304 S2304x65536 S256x65536 [1] [0] [0] [1] [] []

variable [Facts₀]

def gather_S256x514x514_S9x65536x2_S256x9x65536_0_12_n_n_12_2_25611 : GatherDims S256x514x514 S9x65536x2 S256x9x65536 where
  offsetDims := [0]
  collapsedSliceDims := [1, 2]
  operandBatchingDims := []
  startIndicesBatchingDims := []
  startIndexMap := [1, 2]
  indexVectorDim := 2
  sliceSizes := ![256, 1, 1]
  wf := gather_S256x514x514_S9x65536x2_S256x9x65536_0_12_n_n_12_2_25611_wf
def dot_S256x2304_S2304x65536_S256x65536_1_0_0_1_n_n : DotDims S256x2304 S2304x65536 S256x65536 where
  lhsContracting := [1]
  rhsContracting := [0]
  lhsNonContracting := [0]
  rhsNonContracting := [1]
  lhsBatch := []
  rhsBatch := []
  wf := dot_S256x2304_S2304x65536_S256x65536_1_0_0_1_n_n_wf

class Facts : Prop extends Facts₀ where

variable [Facts]
-- ==== Proof.Spec.lean ====
/-
  The function both programs compute, stated once over the four argument arrays.

  A sparse 3×3 convolution: for an output channel `co` and a site `n`,
      out[co, n] = Σ_{t < 9} Σ_{c < 256} weight[co, c, t / 3, t % 3] · P[c, H(t, n), W(t, n)]
  where `P` is the feature map with a border of one cell of the padding value on each side of the two spatial axes
  (514 × 514 per channel), and `H(t, n)`, `W(t, n)` are the row and the column the index arrays name for tap `t` of
  site `n`: a negative word has 514 added (numpy's wrap), and the result, read signed, is clamped into [0, 513] (what
  a gather does to a start index whose slice would not fit).

  One program sums over the contraction index `t · 256 + c`, the other over `c · 9 + t`: `sum_fin_mul` splits a sum
  over `Fin (m · n)` into the double sum, and the two double sums differ by the order of summation only.
-/
import Idealize.ShloMosaic.PureOps.Ideal
import Idealize.ShloMosaic.Lib.ValueIdx

noncomputable section

open scoped BigOperators

namespace Cert.SparseConv

open Idealize.ShloMosaic Idealize.ShloMosaic.ValueIdx

/-- The padding value both programs use: the integer word zero converted to a float. -/
def zeroPad : EReal := FloatOps.sitofp (F := Ideal) .f32 (0#32 : BitVec 32)

/-- The position an index word names on an axis of extent 514: wrapped if negative, read signed, clamped. -/
def pos (v : BitVec 32) : Nat :=
  min (Scalar.select (IntOp.cmpi .slt v 0#32) (IntOp.addi v 514#32) v).toInt.toNat (514 - 1)

theorem pos_lt (v : BitVec 32) : pos v < 514 := by unfold pos; omega

/-- The position as a coordinate of the bordered map. -/
def posF (v : BitVec 32) : Fin 514 := ⟨pos v, pos_lt v⟩

/-- The bordered feature map: channel `c` at row `a` and column `b` of the 514 × 514 plane — the feature map one
    cell up and to the left when both are interior, the padding value `z` on the border. -/
def bordered (z : EReal) (feat : (⟨4, ![1, 256, 512, 512]⟩ : Shape).Idx → EReal) (c : Fin 256) (a b : Fin 514) : EReal :=
  if h : (1 ≤ a.val ∧ a.val ≤ 512) ∧ (1 ≤ b.val ∧ b.val ≤ 512) then
    feat (ix4 (0 : Fin 1) c (⟨a.val - 1, by omega⟩ : Fin 512) (⟨b.val - 1, by omega⟩ : Fin 512))
  else z

/-- One term of the convolution: tap `t`, input channel `c`. -/
def term (z : EReal) (feat : (⟨4, ![1, 256, 512, 512]⟩ : Shape).Idx → EReal)
    (wt : (⟨4, ![256, 256, 3, 3]⟩ : Shape).Idx → EReal) (hi wi : (⟨2, ![9, 65536]⟩ : Shape).Idx → BitVec 32)
    (co : Fin 256) (n : Fin 65536) (t : Fin 9) (c : Fin 256) : EReal :=
  wt (ix4 co c (⟨t.val / 3, by omega⟩ : Fin 3) (⟨t.val % 3, by omega⟩ : Fin 3))
    * bordered z feat c (posF (hi (ix2 t n))) (posF (wi (ix2 t n)))

/-- THE RESULT: the convolution at output channel `i 0` and site `i 1`. -/
def conv (z : EReal) (feat : (⟨4, ![1, 256, 512, 512]⟩ : Shape).Idx → EReal)
    (wt : (⟨4, ![256, 256, 3, 3]⟩ : Shape).Idx → EReal) (hi wi : (⟨2, ![9, 65536]⟩ : Shape).Idx → BitVec 32) :
    (⟨2, ![256, 65536]⟩ : Shape).Idx → EReal :=
  fun i => ∑ t : Fin 9, ∑ c : Fin 256, term z feat wt hi wi (i 0) (i 1) t c

/-- A sum over `Fin N`, `N = m · n`, is the double sum over quotient and remainder: `k = a · n + b`. -/
theorem sum_fin_mul {M : Type*} [AddCommMonoid M] (m n N : Nat) (hN : N = m * n) (f : Fin N → M) :
    ∑ k : Fin N, f k
      = ∑ a : Fin m, ∑ b : Fin n, f ⟨a.val * n + b.val, by
          subst hN
          have ha := a.isLt; have hb := b.isLt
          calc a.val * n + b.val < a.val * n + n := by omega
            _ = (a.val + 1) * n := by ring
            _ ≤ m * n := Nat.mul_le_mul_right n ha⟩ := by
  subst hN
  rw [← Equiv.sum_comp finProdFinEquiv f, Fintype.sum_prod_type]
  refine Finset.sum_congr rfl fun a _ => Finset.sum_congr rfl fun b _ => congrArg f (Fin.ext ?_)
  simp only [finProdFinEquiv_apply_val]
  ring

end Cert.SparseConv

end
-- ==== Proof.GatherRef.lean ====
/-
  The reference program's gather, read at an index.

  The operand is the bordered map laid out [channel, row, column] = [256, 514, 514]; the start indices are an array
  [tap, site, 2] whose last axis holds (row, column). Result element (c, t, n) reads the operand at
  (c, row clamped, column clamped): the channel axis is the one offset axis and starts at 0, the two spatial axes are
  collapsed and take their start from the index pair, read signed and clamped into [0, 513].
-/
import proofs.«141959_j87806311399783_2_alg».proof.Proof.Gen.ReferenceIdeal
import Idealize.ShloMosaic.Lib.ValueIdx

noncomputable section

namespace Cert.ReferenceIdeal.HostRead

open Cert.ReferenceIdeal Cert.ReferenceIdeal.Gen Idealize.ShloMosaic Idealize.ShloMosaic.ValueIdx

/-- The gather's dimension numbers, under a short name. -/
abbrev gd : GatherDims S256x514x514 S9x65536x2 S256x9x65536 := gather_S256x514x514_S9x65536x2_S256x9x65536_0_12_n_n_12_2_25611

/-- A start index read signed and clamped so that a slice of one cell fits an axis of extent 514. -/
def clamp514 {w : Nat} (v : BitVec w) : Fin 514 := ⟨min v.toInt.toNat (514 - 1), by omega⟩

/-- The start-indices index at which result (·, t, n) reads component `k` of its pair: (t, n, k). -/
theorem gd_siIdx (c : Fin 256) (t : Fin 9) (n : Fin 65536) (k : Fin gd.startIndexMap.length) :
    gd.siIdx (ix3 c t n) k = ix3 t n (⟨k.val, k.isLt⟩ : Fin 2) := by
  funext b; refine Fin.ext ?_
  match b with
  | ⟨0, _⟩ => rfl
  | ⟨1, _⟩ => rfl
  | ⟨2, _⟩ => rfl

/-- On the channel axis the operand index is the result's own channel coordinate: the slice starts at 0 there. -/
theorem gd_coord0 {w : Nat} (idx : IVec S9x65536x2 w) (c : Fin 256) (t : Fin 9) (n : Fin 65536) :
    (gd.operandIdx (ix3 c t n) idx (0 : Fin S256x514x514.rank)).val = c.val := by
  show gd.start (ix3 c t n) idx 0 + gd.batchCoord (ix3 c t n) 0 + gd.offCoord (ix3 c t n) 0 = _
  rw [GatherDims.batchCoord_eq_zero _ _ _ List.not_mem_nil, Nat.add_zero]
  unfold GatherDims.start
  rw [dif_neg (show ¬(0 : Fin S256x514x514.rank) ∈ gd.startIndexMap by decide), Nat.zero_add]
  unfold GatherDims.offCoord
  rw [dif_pos (show (0 : Fin S256x514x514.rank) ∈ gd.sKept by decide)]
  rfl

/-- On the row axis it is the pair's first component, clamped. -/
theorem gd_coord1 {w : Nat} (idx : IVec S9x65536x2 w) (c : Fin 256) (t : Fin 9) (n : Fin 65536) :
    (gd.operandIdx (ix3 c t n) idx (1 : Fin S256x514x514.rank)).val = (clamp514 (idx (ix3 t n (0 : Fin 2)))).val := by
  show gd.start (ix3 c t n) idx 1 + gd.batchCoord (ix3 c t n) 1 + gd.offCoord (ix3 c t n) 1 = _
  rw [GatherDims.batchCoord_eq_zero _ _ _ List.not_mem_nil, Nat.add_zero,
    GatherDims.offCoord_eq_zero _ _ _ (fun h => ((GatherDims.mem_sKept _ _).mp h).1
      (show (1 : Fin S256x514x514.rank) ∈ gd.collapsedSliceDims by decide)), Nat.add_zero]
  unfold GatherDims.start
  rw [dif_pos (show (1 : Fin S256x514x514.rank) ∈ gd.startIndexMap by decide), gd_siIdx]
  rfl

/-- On the column axis it is the pair's second component, clamped. -/
theorem gd_coord2 {w : Nat} (idx : IVec S9x65536x2 w) (c : Fin 256) (t : Fin 9) (n : Fin 65536) :
    (gd.operandIdx (ix3 c t n) idx (2 : Fin S256x514x514.rank)).val = (clamp514 (idx (ix3 t n (1 : Fin 2)))).val := by
  show gd.start (ix3 c t n) idx 2 + gd.batchCoord (ix3 c t n) 2 + gd.offCoord (ix3 c t n) 2 = _
  rw [GatherDims.batchCoord_eq_zero _ _ _ List.not_mem_nil, Nat.add_zero,
    GatherDims.offCoord_eq_zero _ _ _ (fun h => ((GatherDims.mem_sKept _ _).mp h).1
      (show (2 : Fin S256x514x514.rank) ∈ gd.collapsedSliceDims by decide)), Nat.add_zero]
  unfold GatherDims.start
  rw [dif_pos (show (2 : Fin S256x514x514.rank) ∈ gd.startIndexMap by decide), gd_siIdx]
  rfl

/-- THE GATHER'S OPERAND INDEX at result (c, t, n): (c, row, column) with row and column the pair at (t, n) clamped. -/
theorem gd_operandIdx {w : Nat} (idx : IVec S9x65536x2 w) (c : Fin 256) (t : Fin 9) (n : Fin 65536) :
    gd.operandIdx (ix3 c t n) idx
      = ix3 c (clamp514 (idx (ix3 t n (0 : Fin 2)))) (clamp514 (idx (ix3 t n (1 : Fin 2)))) := by
  funext a; refine Fin.ext ?_
  match a with
  | ⟨0, _⟩ => exact gd_coord0 idx c t n
  | ⟨1, _⟩ => exact gd_coord1 idx c t n
  | ⟨2, _⟩ => exact gd_coord2 idx c t n

/-- The gather read at (c, t, n). -/
theorem gather_apply {α : Type} {w : Nat} (x : S256x514x514.Idx → α) (idx : IVec S9x65536x2 w)
    (c : Fin 256) (t : Fin 9) (n : Fin 65536) :
    Host.gather gd x idx (ix3 c t n)
      = x (ix3 c (clamp514 (idx (ix3 t n (0 : Fin 2)))) (clamp514 (idx (ix3 t n (1 : Fin 2))))) := by
  unfold Host.gather
  rw [gd_operandIdx]

end Cert.ReferenceIdeal.HostRead

end
-- ==== Proof.RefValue.lean ====
/-
  The reference program computes the convolution `Cert.SparseConv.conv`.

  Its steps, each read at an index: the feature map bordered on its two spatial axes and viewed as [channel, row, column];
  the two index arrays wrapped and joined into (row, column) pairs per (tap, site); the gather of one cell per channel at
  each pair; the result viewed as a matrix with rows `c · 9 + t`; the weights viewed as a matrix with columns
  `c · 9 + (kh · 3 + kw)`; their product. Splitting the contraction index `k = c · 9 + t` turns the product's sum into the
  double sum over channels and taps, and exchanging the two sums gives `conv`.
-/
import proofs.«141959_j87806311399783_2_alg».proof.Proof.Gen.ReferenceIdeal.Read
import proofs.«141959_j87806311399783_2_alg».proof.Proof.GatherRef
import proofs.«141959_j87806311399783_2_alg».proof.Proof.Spec
import Idealize.ShloMosaic.Lib.KernelVsHost

noncomputable section

open scoped BigOperators

namespace Cert.ReferenceIdeal.RefValue

open Cert.ReferenceIdeal Cert.ReferenceIdeal.Gen Cert.ReferenceIdeal.Read Cert.ReferenceIdeal.HostRead
open Idealize.ShloMosaic Idealize.ShloMosaic.ValueIdx Cert.SparseConv

/-- The bordered map, viewed [channel, row, column], at (c, a, b): the feature map one cell up and to the left inside
    the border, the padding value on it. -/
theorem bordered_apply (x0 : (⟨S1x256x512x512, .f32⟩ : BufTy).Contents (Elt Ideal)) (c : Fin 256) (a b : Fin 514) :
    val_main_v1 (F := Ideal) x0 (ix3 c a b) = bordered zeroPad x0 c a b := by
  have hc := c.isLt; have ha := a.isLt; have hb := b.isLt
  rw [val_main_v1_apply]
  unfold val_main_v0 bordered
  by_cases h : (1 ≤ a.val ∧ a.val ≤ 512) ∧ (1 ≤ b.val ∧ b.val ≤ 512)
  · rw [dif_pos h]
    refine pad_apply_of_inside _ _ _ x0 _ _ _ (idx_main_v1 (ix3 c a b))
      (ix4 (0 : Fin 1) c (⟨a.val - 1, by omega⟩ : Fin 512) (⟨b.val - 1, by omega⟩ : Fin 512)) (fun ax => ?_)
    match ax with
    | ⟨0, _⟩ => show 0 = 0 + 0 * (0 + 1); rfl
    | ⟨1, _⟩ => show ((c.val * 514 + a.val) * 514 + b.val) / 264196 % 256 = 0 + c.val * (0 + 1); omega
    | ⟨2, _⟩ => show ((c.val * 514 + a.val) * 514 + b.val) / 514 % 514 = 1 + (a.val - 1) * (0 + 1); omega
    | ⟨3, _⟩ => show ((c.val * 514 + a.val) * 514 + b.val) % 514 = 1 + (b.val - 1) * (0 + 1); omega
  · rw [dif_neg h]
    by_cases h2 : 1 ≤ a.val ∧ a.val ≤ 512
    · refine (pad_apply_of_not_inside _ _ _ x0 _ _ _ (idx_main_v1 (ix3 c a b)) (3 : Fin 4) ?_).trans rfl
      show ¬(1 ≤ ((c.val * 514 + a.val) * 514 + b.val) % 514
        ∧ (((c.val * 514 + a.val) * 514 + b.val) % 514 - 1) % (0 + 1) = 0
        ∧ (((c.val * 514 + a.val) * 514 + b.val) % 514 - 1) / (0 + 1) < 512)
      omega
    · refine (pad_apply_of_not_inside _ _ _ x0 _ _ _ (idx_main_v1 (ix3 c a b)) (2 : Fin 4) ?_).trans rfl
      show ¬(1 ≤ ((c.val * 514 + a.val) * 514 + b.val) / 514 % 514
        ∧ (((c.val * 514 + a.val) * 514 + b.val) / 514 % 514 - 1) % (0 + 1) = 0
        ∧ (((c.val * 514 + a.val) * 514 + b.val) / 514 % 514 - 1) / (0 + 1) < 512)
      omega

/-- A wrapped row index at (t, n): 514 added to a negative word. -/
theorem wrap_row (x2 : (⟨S9x65536, .i32⟩ : BufTy).Contents (Elt Ideal)) (t : Fin 9) (n : Fin 65536) :
    val_main_v6 (F := Ideal) x2 (ix2 t n)
      = Scalar.select (IntOp.cmpi .slt (x2 (ix2 t n)) 0#32) (IntOp.addi (x2 (ix2 t n)) 514#32) (x2 (ix2 t n)) := by
  rw [val_main_v6_apply, val_main_v3_apply, val_main_v5_apply, val_main_v2_apply, val_main_v4_apply,
    val_main_c_0_apply, val_main_c_1_apply]

/-- A wrapped column index at (t, n). -/
theorem wrap_col (x3 : (⟨S9x65536, .i32⟩ : BufTy).Contents (Elt Ideal)) (t : Fin 9) (n : Fin 65536) :
    val_main_v11 (F := Ideal) x3 (ix2 t n)
      = Scalar.select (IntOp.cmpi .slt (x3 (ix2 t n)) 0#32) (IntOp.addi (x3 (ix2 t n)) 514#32) (x3 (ix2 t n)) := by
  rw [val_main_v11_apply, val_main_v8_apply, val_main_v10_apply, val_main_v7_apply, val_main_v9_apply,
    val_main_c_2_apply, val_main_c_3_apply]

/-- The pair array's first component at (t, n) is the wrapped row index there … -/
theorem pair_fst (x2 x3 : (⟨S9x65536, .i32⟩ : BufTy).Contents (Elt Ideal)) (t : Fin 9) (n : Fin 65536) :
    val_main_v14 (F := Ideal) x2 x3 (ix3 t n (0 : Fin 2)) = val_main_v6 (F := Ideal) x2 (ix2 t n) := by
  unfold val_main_v14
  refine (concatenate_pair_apply_left (s₁ := S9x65536x1) (s₂ := S9x65536x1) (2 : Fin 3) _ _ _ (ix3 t n (0 : Fin 2)) rfl (ix3 t n (0 : Fin 1)) (fun b => ?_)).trans ?_
  · match b with
    | ⟨0, _⟩ => rfl
    | ⟨1, _⟩ => rfl
    | ⟨2, _⟩ => rfl
  · rw [val_main_v12_apply]
    refine congrArg _ (funext fun a => Fin.ext ?_)
    match a with
    | ⟨0, _⟩ => rfl
    | ⟨1, _⟩ => rfl

/-- … and its second the wrapped column index. -/
theorem pair_snd (x2 x3 : (⟨S9x65536, .i32⟩ : BufTy).Contents (Elt Ideal)) (t : Fin 9) (n : Fin 65536) :
    val_main_v14 (F := Ideal) x2 x3 (ix3 t n (1 : Fin 2)) = val_main_v11 (F := Ideal) x3 (ix2 t n) := by
  unfold val_main_v14
  refine (concatenate_pair_apply_right (s₁ := S9x65536x1) (s₂ := S9x65536x1) (2 : Fin 3) _ _ _ (ix3 t n (1 : Fin 2)) rfl rfl (ix3 t n (0 : Fin 1)) (fun b hb => ?_) rfl).trans ?_
  · match b with
    | ⟨0, _⟩ => rfl
    | ⟨1, _⟩ => rfl
    | ⟨2, _⟩ => exact absurd rfl hb
  · rw [val_main_v13_apply]
    refine congrArg _ (funext fun a => Fin.ext ?_)
    match a with
    | ⟨0, _⟩ => rfl
    | ⟨1, _⟩ => rfl

/-- The row the gather reads for tap `t` of site `n` is the spec's position of the row index word … -/
theorem row_pos (x2 x3 : (⟨S9x65536, .i32⟩ : BufTy).Contents (Elt Ideal)) (t : Fin 9) (n : Fin 65536) :
    clamp514 (val_main_v14 (F := Ideal) x2 x3 (ix3 t n (0 : Fin 2))) = posF (x2 (ix2 t n)) := by
  rw [pair_fst, wrap_row]; rfl

/-- … and the column the position of the column index word. -/
theorem col_pos (x2 x3 : (⟨S9x65536, .i32⟩ : BufTy).Contents (Elt Ideal)) (t : Fin 9) (n : Fin 65536) :
    clamp514 (val_main_v14 (F := Ideal) x2 x3 (ix3 t n (1 : Fin 2))) = posF (x3 (ix2 t n)) := by
  rw [pair_snd, wrap_col]; rfl

/-- ONE TERM of the reference's product, at contraction position `k = c · 9 + t`: weight times bordered map. -/
theorem ref_term (x0 : (⟨S1x256x512x512, .f32⟩ : BufTy).Contents (Elt Ideal)) (x1 : (⟨S256x256x3x3, .f32⟩ : BufTy).Contents (Elt Ideal))
    (x2 x3 : (⟨S9x65536, .i32⟩ : BufTy).Contents (Elt Ideal)) (co : Fin 256) (n : Fin 65536) (t : Fin 9) (c : Fin 256)
    (k : Fin 2304) (hk : k.val = c.val * 9 + t.val) :
    val_main_v17 (F := Ideal) x1 (lidx_main_v18 (ix2 co n) k) * val_main_v16 (F := Ideal) x0 x2 x3 (ridx_main_v18 (ix2 co n) k)
      = term zeroPad x0 x1 x2 x3 co n t c := by
  have hco := co.isLt; have hn := n.isLt; have ht := t.isLt; have hc := c.isLt
  have e17 : idx_main_v17 (lidx_main_v18 (ix2 co n) k)
      = ix4 co c (⟨t.val / 3, by omega⟩ : Fin 3) (⟨t.val % 3, by omega⟩ : Fin 3) := by
    funext a; refine Fin.ext ?_
    match a with
    | ⟨0, _⟩ => show (co.val * 2304 + k.val) / 2304 = co.val; omega
    | ⟨1, _⟩ => show (co.val * 2304 + k.val) / 9 % 256 = c.val; omega
    | ⟨2, _⟩ => show (co.val * 2304 + k.val) / 3 % 3 = t.val / 3; omega
    | ⟨3, _⟩ => show (co.val * 2304 + k.val) % 3 = t.val % 3; omega
  have e16 : idx_main_v16 (ridx_main_v18 (ix2 co n) k) = ix3 c t n := by
    funext a; refine Fin.ext ?_
    match a with
    | ⟨0, _⟩ => show (k.val * 65536 + n.val) / 589824 = c.val; omega
    | ⟨1, _⟩ => show (k.val * 65536 + n.val) / 65536 % 9 = t.val; omega
    | ⟨2, _⟩ => show (k.val * 65536 + n.val) % 65536 = n.val; omega
  rw [val_main_v17_apply, val_main_v16_apply, e17, e16]
  unfold val_main_v15 term
  rw [HostRead.gather_apply, bordered_apply, row_pos, col_pos]

/-- THE REFERENCE'S RESULT is the convolution. -/
theorem ref_eq (x0 : (⟨S1x256x512x512, .f32⟩ : BufTy).Contents (Elt Ideal)) (x1 : (⟨S256x256x3x3, .f32⟩ : BufTy).Contents (Elt Ideal))
    (x2 x3 : (⟨S9x65536, .i32⟩ : BufTy).Contents (Elt Ideal)) :
    val_main_v18 (F := Ideal) x0 x1 x2 x3 = conv zeroPad x0 x1 x2 x3 := by
  funext i
  obtain ⟨co, n, rfl⟩ : ∃ (co : Fin 256) (n : Fin 65536), i = ix2 co n := ⟨i 0, i 1, eq_ix2 i⟩
  rw [val_main_v18_apply, sum_fin_mul 256 9 2304 rfl, Finset.sum_comm]
  show _ = ∑ t : Fin 9, ∑ c : Fin 256, term zeroPad x0 x1 x2 x3 co n t c
  exact Finset.sum_congr rfl fun t _ => Finset.sum_congr rfl fun c _ => ref_term x0 x1 x2 x3 co n t c _ rfl

end Cert.ReferenceIdeal.RefValue

end
-- ==== Proof.Block.lean ====
/-
  What the kernel body computes on one block.

  The body loads a block A of 2048 rows of the gathered matrix (2048 × 2304), loads the whole weight matrix B (2304 × 256),
  and stores their product accumulated into zero. On the extended reals, entry (p, q) of what it stores is
      Σ_{k < 2304} A[p, k] · B[k, q].
-/
import proofs.«141959_j87806311399783_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The product's dimension numbers, under a short name: rows × contraction times contraction × columns. -/
abbrev dd : DotDims S2048x2304 S2304x256 S2048x256 := dot_S2048x2304_S2304x256_S2048x256_1_0_0_1_n_n

/-- The left operand is read at the result's row … -/
theorem lhs_row (i : S2048x256.Idx) (q : dd.contr.Idx) : (dd.lhsIdx i q 0).val = (i 0).val := by
  unfold DotDims.lhsIdx
  rw [dif_neg (show ¬(0 : Fin S2048x2304.rank) ∈ dd.lhsBatch by decide),
    dif_pos (show (0 : Fin S2048x2304.rank) ∈ dd.lhsNonContracting by decide)]
  rfl
/-- … and the contraction position; -/
theorem lhs_col (i : S2048x256.Idx) (q : dd.contr.Idx) : (dd.lhsIdx i q 1).val = (q ⟨0, by decide⟩).val :=
  dd.lhsIdx_val_of_single rfl i q
/-- the right operand at the contraction position … -/
theorem rhs_row (i : S2048x256.Idx) (q : dd.contr.Idx) : (dd.rhsIdx i q 0).val = (q ⟨0, by decide⟩).val :=
  dd.rhsIdx_val_of_single rfl i q
/-- … and the result's column. -/
theorem rhs_col (i : S2048x256.Idx) (q : dd.contr.Idx) : (dd.rhsIdx i q 1).val = (i 1).val := by
  unfold DotDims.rhsIdx
  rw [dif_neg (show ¬(1 : Fin S2304x256.rank) ∈ dd.rhsBatch by decide),
    dif_pos (show (1 : Fin S2304x256.rank) ∈ dd.rhsNonContracting by decide)]
  rfl

/-- The left operand's index at result `i` and contraction position `k`: (row of `i`, k). -/
abbrev lidx (i : S2048x256.Idx) (k : Fin 2304) : S2048x2304.Idx := fun a => match a with
  | ⟨0, _⟩ => ⟨(i 0).val, (i 0).isLt⟩
  | ⟨1, _⟩ => ⟨k.val, k.isLt⟩
/-- The right operand's: (k, column of `i`). -/
abbrev ridx (i : S2048x256.Idx) (k : Fin 2304) : S2304x256.Idx := fun a => match a with
  | ⟨0, _⟩ => ⟨k.val, k.isLt⟩
  | ⟨1, _⟩ => ⟨(i 1).val, (i 1).isLt⟩

/-- THE BODY'S STORED VALUE at an index: the plain sum of products over the contraction positions. -/
theorem pay_apply (x0 : FVec Ideal S2048x2304 .bf16) (x1 : FVec Ideal S2304x256 .bf16) (i : S2048x256.Idx) :
    k0_pay1 (F := Ideal) x0 x1 i = ∑ k : Fin 2304, x0 (lidx i k) * x1 (ridx i k) := by
  unfold k0_pay1
  simp only [shapeCast_self, matmul]
  rw [Ideal.matmul_constant_zero_apply, ← Equiv.sum_comp (contrEquiv1 dd 2304 rfl rfl).symm]
  refine Finset.sum_congr rfl fun k _ => ?_
  have hk := contrEquiv1_symm_val dd 2304 rfl rfl k
  have el : dd.lhsIdx i ((contrEquiv1 dd 2304 rfl rfl).symm k) = lidx i k := funext fun a => Fin.ext (by
    match a with
    | ⟨0, _⟩ => exact lhs_row _ _
    | ⟨1, _⟩ => exact (lhs_col _ _).trans hk)
  have er : dd.rhsIdx i ((contrEquiv1 dd 2304 rfl rfl).symm k) = ridx i k := funext fun a => Fin.ext (by
    match a with
    | ⟨0, _⟩ => exact (rhs_row _ _).trans hk
    | ⟨1, _⟩ => exact rhs_col _ _)
  rw [el, er]

end Cert.KernelIdeal.Block

end
-- ==== Proof.KernelArray.lean ====
/-
  The array the region leaves: the product of the two whole matrices.

  The grid has 32 points. At point `t` the body reads rows [2048 t, 2048 t + 2048) of the left matrix (65536 × 2304) and the
  whole right matrix (2304 × 256), and what it stores is written back to rows [2048 t, 2048 t + 2048) of the output
  (65536 × 256). Entry (p, q) of a block's product depends only on row p of the left block, and row p of block `t` is row
  2048 t + p of the left matrix: so every block written back is a block of ONE function of the two matrices, their
  product `prod A B`, and since the 32 row blocks cover the output, the output array ends equal to it.
-/
import proofs.«141959_j87806311399783_2_alg».proof.Proof.Gen.KernelIdeal.Frame
import proofs.«141959_j87806311399783_2_alg».proof.Proof.Block
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The product of a 65536 × 2304 matrix and a 2304 × 256 matrix, entry by entry, on the extended reals. -/
def prod (A : S65536x2304.Idx → EReal) (B : S2304x256.Idx → EReal) : S65536x256.Idx → EReal :=
  fun i => ∑ k : Fin 2304, A (ix2 (⟨(i 0).val, idx2_lt0 i⟩ : Fin 65536) k) * B (ix2 k (⟨(i 1).val, idx2_lt1 i⟩ : Fin 256))

theorem offsets_zero : (![0, 0] : Fin 2 → Nat) = fun _ => 0 := funext fun a => by fin_cases a <;> rfl

/-- The printed block indices, decided over the 32 points: the left matrix's block and the output's move together down
    the rows, and every other block index is 0. -/
theorem blockIdx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem rowBlock_onto : ∀ q : Fin 32, ∃ t : Fin cfg0.N, win0_2.index t = ![q.val, 0] :=
  (by decide +kernel : ∀ q : Fin 32, ∃ t : Fin grid0.N, win0_2.index t = ![q.val, 0])

/-- WHAT POINT `t` WRITES BACK is block `t` of the product of the two matrices as the region finds them. -/
theorem flushed_eq (c : Dev nD) (t : Fin cfg0.N) :
    (dats m 0 c).flushed 2 t = ((cfg0.win 2).blk t).view.read (Elt Ideal) (prod (V m c main_v20) (V m c main_v23)) := by
  show (cfg0.win 2).cut (grid0.coords t) ((dats m 0 c).after 2 t) = _
  rw [after0_2]
  unfold out0_2
  rw [View.canon_unit_zero offsets_zero]
  simp only [View.ld_unit_zero (S := S2048x2304) offsets_zero, View.ld_unit_zero (S := S2304x256) offsets_zero]
  obtain ⟨e0, e1, e2, e3, e4⟩ := blockIdx t
  funext j
  show k0_pay1 (iblk m c 0 t) (iblk m c 1 t) j = prod (V m c main_v20) (V m c main_v23) (((cfg0.win 2).blk t).view.emb j)
  refine (Block.pay_apply (iblk m c 0 t) (iblk m c 1 t) j).trans ?_
  unfold prod
  refine Finset.sum_congr rfl fun k _ => ?_
  have hj0 : (j 0).val < 2048 := (j 0).isLt
  have hj1 : (j 1).val < 256 := (j 1).isLt
  have hk : k.val < 2304 := k.isLt
  have h0 : ((cfg0.win 0).blk t).view.emb (Block.lidx j k)
      = ix2 (⟨((((cfg0.win 2).blk t).view.emb j) 0).val, idx2_lt0 _⟩ : Fin 65536) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 2304 + 1 * k.val = k.val; omega
  have h1 : ((cfg0.win 1).blk t).view.emb (Block.ridx j k)
      = ix2 k (⟨((((cfg0.win 2).blk t).view.emb j) 1).val, idx2_lt1 _⟩ : Fin 256) := by
    funext a; apply Fin.ext
    match a with
    | ⟨0, _⟩ => show win0_1.index t (0 : Fin 2) * 2304 + 1 * k.val = k.val; omega
    | ⟨1, _⟩ => show win0_1.index t (1 : Fin 2) * 256 + 1 * (j 1).val = win0_2.index t (1 : Fin 2) * 256 + 1 * (j 1).val; omega
  have r0 : iblk m c 0 t (Block.lidx j k)
      = V m c main_v20 (ix2 (⟨((((cfg0.win 2).blk t).view.emb j) 0).val, idx2_lt0 _⟩ : Fin 65536) k) :=
    congrArg (V m c main_v20) h0
  have r1 : iblk m c 1 t (Block.ridx j k)
      = V m c main_v23 (ix2 k (⟨((((cfg0.win 2).blk t).view.emb j) 1).val, idx2_lt1 _⟩ : Fin 256)) :=
    congrArg (V m c main_v23) h1
  rw [r0, r1]

/-- An index of the output is in point `t`'s block iff each coordinate is in the block's range on its axis. -/
theorem mem_blk (t : Fin cfg0.N) (i : S65536x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v24).slice (win0_2.rect t)).set ↔ _
  rw [View.set_slice_whole, Rect.mem_set_unit]
  exact Iff.rfl

/-- The row blocks cover the output: row `r` is in the block of the point whose block index is `r / 2048`. -/
theorem cover (i : S65536x256.Idx) : ∃ t : Fin cfg0.N, (cfg0.win 2).flush t = true ∧ i ∈ ((cfg0.win 2).blk t).view.set := by
  have hi0 : (i 0).val < 65536 := (i 0).isLt
  have hi1 : (i 1).val < 256 := (i 1).isLt
  obtain ⟨t, ht⟩ := rowBlock_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- THE OUTPUT ARRAY after the run is the product of the two matrices as the region finds them. -/
theorem final (c : Dev nD) : (dats m 0 c).arrAt 2 cfg0.N = prod (V m c main_v20) (V m c main_v23) :=
  (dats m 0 c).arrAt_eq_of_cover 2 _ (fun t _ => flushed_eq m c t) cover

end Cert.KernelIdeal.Product

end
-- ==== Proof.GatherKernel.lean ====
/-
  The kernel program's gather, read at an index.

  The operand is the bordered map laid out [row, column, channel] = [514, 514, 256]; the start indices are an array
  [site, tap, 2] whose last axis holds (row, column). Result element (n, t, c) reads the operand at
  (row clamped, column clamped, c): the two spatial axes are collapsed (slice size 1) and take their start from the
  index pair — read signed and clamped into [0, 513] —, the channel axis is the one offset axis and starts at 0.
-/
import proofs.«141959_j87806311399783_2_alg».proof.Proof.Gen.KernelIdeal
import Idealize.ShloMosaic.Lib.ValueIdx

noncomputable section

namespace Cert.KernelIdeal.HostRead

open Cert.KernelIdeal Cert.KernelIdeal.Gen Idealize.ShloMosaic Idealize.ShloMosaic.ValueIdx

/-- The gather's dimension numbers, under a short name. -/
abbrev gd : GatherDims S514x514x256 S65536x9x2 S65536x9x256 := gather_S514x514x256_S65536x9x2_S65536x9x256_2_01_n_n_01_2_11256

/-- A start index read signed and clamped so that a slice of one cell fits an axis of extent 514. -/
def clamp514 {w : Nat} (v : BitVec w) : Fin 514 := ⟨min v.toInt.toNat (514 - 1), by omega⟩

/-- The start-indices index at which result (n, t, ·) reads component `k` of its pair: (n, t, k). -/
theorem gd_siIdx (n : Fin 65536) (t : Fin 9) (c : Fin 256) (k : Fin gd.startIndexMap.length) :
    gd.siIdx (ix3 n t c) k = ix3 n t (⟨k.val, k.isLt⟩ : Fin 2) := by
  funext b; refine Fin.ext ?_
  match b with
  | ⟨0, _⟩ => rfl
  | ⟨1, _⟩ => rfl
  | ⟨2, _⟩ => rfl

/-- On the row axis the operand index is the pair's first component, clamped. -/
theorem gd_coord0 {w : Nat} (idx : IVec S65536x9x2 w) (n : Fin 65536) (t : Fin 9) (c : Fin 256) :
    (gd.operandIdx (ix3 n t c) idx (0 : Fin S514x514x256.rank)).val = (clamp514 (idx (ix3 n t (0 : Fin 2)))).val := by
  show gd.start (ix3 n t c) idx 0 + gd.batchCoord (ix3 n t c) 0 + gd.offCoord (ix3 n t c) 0 = _
  rw [GatherDims.batchCoord_eq_zero _ _ _ List.not_mem_nil, Nat.add_zero,
    GatherDims.offCoord_eq_zero _ _ _ (fun h => ((GatherDims.mem_sKept _ _).mp h).1
      (show (0 : Fin S514x514x256.rank) ∈ gd.collapsedSliceDims by decide)), Nat.add_zero]
  unfold GatherDims.start
  rw [dif_pos (show (0 : Fin S514x514x256.rank) ∈ gd.startIndexMap by decide), gd_siIdx]
  rfl

/-- On the column axis it is the pair's second component, clamped. -/
theorem gd_coord1 {w : Nat} (idx : IVec S65536x9x2 w) (n : Fin 65536) (t : Fin 9) (c : Fin 256) :
    (gd.operandIdx (ix3 n t c) idx (1 : Fin S514x514x256.rank)).val = (clamp514 (idx (ix3 n t (1 : Fin 2)))).val := by
  show gd.start (ix3 n t c) idx 1 + gd.batchCoord (ix3 n t c) 1 + gd.offCoord (ix3 n t c) 1 = _
  rw [GatherDims.batchCoord_eq_zero _ _ _ List.not_mem_nil, Nat.add_zero,
    GatherDims.offCoord_eq_zero _ _ _ (fun h => ((GatherDims.mem_sKept _ _).mp h).1
      (show (1 : Fin S514x514x256.rank) ∈ gd.collapsedSliceDims by decide)), Nat.add_zero]
  unfold GatherDims.start
  rw [dif_pos (show (1 : Fin S514x514x256.rank) ∈ gd.startIndexMap by decide), gd_siIdx]
  rfl

/-- On the channel axis it is the result's own channel coordinate: the slice starts at 0 there. -/
theorem gd_coord2 {w : Nat} (idx : IVec S65536x9x2 w) (n : Fin 65536) (t : Fin 9) (c : Fin 256) :
    (gd.operandIdx (ix3 n t c) idx (2 : Fin S514x514x256.rank)).val = c.val := by
  show gd.start (ix3 n t c) idx 2 + gd.batchCoord (ix3 n t c) 2 + gd.offCoord (ix3 n t c) 2 = _
  rw [GatherDims.batchCoord_eq_zero _ _ _ List.not_mem_nil, Nat.add_zero]
  unfold GatherDims.start
  rw [dif_neg (show ¬(2 : Fin S514x514x256.rank) ∈ gd.startIndexMap by decide), Nat.zero_add]
  unfold GatherDims.offCoord
  rw [dif_pos (show (2 : Fin S514x514x256.rank) ∈ gd.sKept by decide)]
  rfl

/-- THE GATHER'S OPERAND INDEX at result (n, t, c): (row, column, c) with row and column the pair at (n, t) clamped. -/
theorem gd_operandIdx {w : Nat} (idx : IVec S65536x9x2 w) (n : Fin 65536) (t : Fin 9) (c : Fin 256) :
    gd.operandIdx (ix3 n t c) idx
      = ix3 (clamp514 (idx (ix3 n t (0 : Fin 2)))) (clamp514 (idx (ix3 n t (1 : Fin 2)))) c := by
  funext a; refine Fin.ext ?_
  match a with
  | ⟨0, _⟩ => exact gd_coord0 idx n t c
  | ⟨1, _⟩ => exact gd_coord1 idx n t c
  | ⟨2, _⟩ => exact gd_coord2 idx n t c

/-- The gather read at (n, t, c). -/
theorem gather_apply {α : Type} {w : Nat} (x : S514x514x256.Idx → α) (idx : IVec S65536x9x2 w)
    (n : Fin 65536) (t : Fin 9) (c : Fin 256) :
    Host.gather gd x idx (ix3 n t c)
      = x (ix3 (clamp514 (idx (ix3 n t (0 : Fin 2)))) (clamp514 (idx (ix3 n t (1 : Fin 2)))) c) := by
  unfold Host.gather
  rw [gd_operandIdx]

end Cert.KernelIdeal.HostRead

end
-- ==== Proof.KernelHost.lean ====
/-
  The two matrices the kernel multiplies, as functions of the argument arrays.

  Before the region the program lays the feature map out [row, column, channel], borders its two spatial axes with the
  padding value, wraps the two index arrays (transposed to [site, tap]) and joins them into (row, column) pairs, gathers
  the 256 channels at each pair, and views the result as the matrix `gathered` of 65536 rows (sites) and 2304 columns
  `t · 256 + c`. It lays the weights out [kh, kw, c, co] and views them as the matrix `weights` of 2304 rows
  `(kh · 3 + kw) · 256 + c` and 256 columns. The changes of float format are the identity on the extended reals.

  Read at an index: `gathered[n, t · 256 + c]` is the bordered map of channel `c` at the positions the index words for
  tap `t` of site `n` name, and `weights[t · 256 + c, co]` is `weight[co, c, t / 3, t % 3]`.
-/
import proofs.«141959_j87806311399783_2_alg».proof.Proof.Gen.KernelIdeal.Frame
import proofs.«141959_j87806311399783_2_alg».proof.Proof.GatherKernel
import proofs.«141959_j87806311399783_2_alg».proof.Proof.Spec
import Idealize.ShloMosaic.Lib.KernelVsHost
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Idealize.ShloMosaic.StableHlo Idealize.ShloMosaic.ValueIdx Cert.SparseConv

section Stages
variable {F : FTy → Type} [FloatOps F]

/-- The padding value: the integer word zero converted. -/
def padVal : (⟨S_, .f32⟩ : BufTy).Contents (Elt F) := sitofp .f32 (constantI S_ 32 0#32)

/-- The feature map laid out [row, column, channel]. -/
def hwc (x0 : (⟨S1x256x512x512, .f32⟩ : BufTy).Contents (Elt F)) : (⟨S512x512x256, .f32⟩ : BufTy).Contents (Elt F) :=
  transpose S512x512x256 [1, 2, 0] (shapeCast _ x0 shapeCasts_S1x256x512x512_S256x512x512) transposes_S256x512x512_S512x512x256_1_2_0

/-- The same with a border of one cell on the two spatial axes, in the narrower float format. -/
def borderedHwc (x0 : (⟨S1x256x512x512, .f32⟩ : BufTy).Contents (Elt F)) : (⟨S514x514x256, .bf16⟩ : BufTy).Contents (Elt F) :=
  truncf .bf16 (pad S514x514x256 ![1, 1, 0] ![1, 1, 0] ![0, 0, 0] (hwc x0) (padVal (F := F)) pads_S512x512x256_S514x514x256_110_110_000 h_S_) bitsLt_bf16_f32

/-- An index array transposed to [site, tap]. -/
def sites (x : (⟨S9x65536, .i32⟩ : BufTy).Contents (Elt F)) : (⟨S65536x9, .i32⟩ : BufTy).Contents (Elt F) :=
  transpose S65536x9 [1, 0] x transposes_S9x65536_S65536x9_1_0

/-- … and wrapped: 514 added where negative. -/
def wrapped (x : (⟨S9x65536, .i32⟩ : BufTy).Contents (Elt F)) : (⟨S65536x9, .i32⟩ : BufTy).Contents (Elt F) :=
  select (cmpi .slt (sites (F := F) x) (broadcastInDim S65536x9 ![] bcast_S_S65536x9 (constantI S_ 32 0#32)))
    (addi (sites (F := F) x) (broadcastInDim S65536x9 ![] bcast_S_S65536x9 (constantI S_ 32 514#32)))
    (sites (F := F) x)

/-- The (row, column) pairs, [site, tap, 2]. -/
def pairs (x2 x3 : (⟨S9x65536, .i32⟩ : BufTy).Contents (Elt F)) : (⟨S65536x9x2, .i32⟩ : BufTy).Contents (Elt F) :=
  concatenate S65536x9x2 2 [⟨S65536x9x1, broadcastInDim S65536x9x1 ![0, 1] bcast_S65536x9_S65536x9x1_0_1 (wrapped (F := F) x2)⟩,
    ⟨S65536x9x1, broadcastInDim S65536x9x1 ![0, 1] bcast_S65536x9_S65536x9x1_0_1 (wrapped (F := F) x3)⟩] concatenates_S65536x9x1_S65536x9x1_S65536x9x2_d2

/-- THE LEFT MATRIX: the gathered channels, one row per site. -/
def gathered (x0 : (⟨S1x256x512x512, .f32⟩ : BufTy).Contents (Elt F)) (x2 x3 : (⟨S9x65536, .i32⟩ : BufTy).Contents (Elt F)) :
    (⟨S65536x2304, .bf16⟩ : BufTy).Contents (Elt F) :=
  shapeCast _ (Host.gather gd (borderedHwc (F := F) x0) (pairs (F := F) x2 x3)) shapeCasts_S65536x9x256_S65536x2304

/-- THE RIGHT MATRIX: the weights, one row per (tap, input channel). -/
def weights (x1 : (⟨S256x256x3x3, .f32⟩ : BufTy).Contents (Elt F)) : (⟨S2304x256, .bf16⟩ : BufTy).Contents (Elt F) :=
  truncf .bf16 (shapeCast _ (transpose S3x3x256x256 [2, 3, 1, 0] x1 transposes_S256x256x3x3_S3x3x256x256_2_3_1_0) shapeCasts_S3x3x256x256_S2304x256) bitsLt_bf16_f32

variable (m : (ℓ : Loc nD τ sig) → Buf (Elt F) ℓ)

/-- The region finds the left matrix in its first window's array … -/
theorem V_gathered (c : Dev nD) :
    (V m c main_v20 : (⟨S65536x2304, .bf16⟩ : BufTy).Contents (Elt F))
      = gathered (F := F) (m ((c : Thread nD τ).loc main_arg0)) (m ((c : Thread nD τ).loc main_arg2)) (m ((c : Thread nD τ).loc main_arg3)) := by
  dsimp only [V, V0]
  simp only [hostOps0, hostOps0_1, hostOps0_2, List.flatten_cons, List.flatten_nil, List.append_nil, List.cons_append, List.nil_append]
  after_results_simp
  rfl

/-- … and the right matrix in its second's. -/
theorem V_weights (c : Dev nD) :
    (V m c main_v23 : (⟨S2304x256, .bf16⟩ : BufTy).Contents (Elt F)) = weights (F := F) (m ((c : Thread nD τ).loc main_arg1)) := by
  dsimp only [V, V0]
  simp only [hostOps0, hostOps0_1, hostOps0_2, List.flatten_cons, List.flatten_nil, List.append_nil, List.cons_append, List.nil_append]
  after_results_simp
  rfl

end Stages

/-! ## The two matrices read at an index, on the extended reals -/

/-- The weights' matrix at row `k = t · 256 + c` and column `co`. -/
theorem weights_apply (x1 : (⟨S256x256x3x3, .f32⟩ : BufTy).Contents (Elt Ideal)) (co : Fin 256) (t : Fin 9) (c : Fin 256)
    (k : Fin 2304) (hk : k.val = t.val * 256 + c.val) :
    weights (F := Ideal) x1 (ix2 k co) = x1 (ix4 co c (⟨t.val / 3, by omega⟩ : Fin 3) (⟨t.val % 3, by omega⟩ : Fin 3)) := by
  have hco := co.isLt; have ht := t.isLt; have hc := c.isLt
  unfold weights
  refine (truncf_apply (ψ := .bf16) (φ := .f32) _ bitsLt_bf16_f32 _).trans ?_
  refine (shapeCast_apply _ shapeCasts_S3x3x256x256_S2304x256 (ix2 k co)
    (ix4 (⟨t.val / 3, by omega⟩ : Fin 3) (⟨t.val % 3, by omega⟩ : Fin 3) c co) ?_).trans ?_
  · rewrite [Shape.rowMajor_val_four, Shape.rowMajor_val_two]
    show ((t.val / 3 * 3 + t.val % 3) * 256 + c.val) * 256 + co.val = k.val * 256 + co.val
    omega
  · refine transpose_apply _ x1 _ _ _ (fun b => ?_)
    match b with
    | ⟨0, _⟩ => rfl
    | ⟨1, _⟩ => rfl
    | ⟨2, _⟩ => rfl
    | ⟨3, _⟩ => rfl

/-- The bordered map laid out [row, column, channel] at (a, b, c). -/
theorem borderedHwc_apply (x0 : (⟨S1x256x512x512, .f32⟩ : BufTy).Contents (Elt Ideal)) (a b : Fin 514) (c : Fin 256) :
    borderedHwc (F := Ideal) x0 (ix3 a b c) = bordered zeroPad x0 c a b := by
  have hc := c.isLt; have ha := a.isLt; have hb := b.isLt
  unfold borderedHwc
  refine (truncf_apply (ψ := .bf16) (φ := .f32) _ bitsLt_bf16_f32 _).trans ?_
  unfold bordered
  by_cases h : (1 ≤ a.val ∧ a.val ≤ 512) ∧ (1 ≤ b.val ∧ b.val ≤ 512)
  · rw [dif_pos h]
    refine (pad_apply_of_inside _ _ _ (hwc (F := Ideal) x0) _ _ _ (ix3 a b c)
      (ix3 (⟨a.val - 1, by omega⟩ : Fin 512) (⟨b.val - 1, by omega⟩ : Fin 512) c) (fun ax => ?_)).trans ?_
    · match ax with
      | ⟨0, _⟩ => show a.val = 1 + (a.val - 1) * (0 + 1); omega
      | ⟨1, _⟩ => show b.val = 1 + (b.val - 1) * (0 + 1); omega
      | ⟨2, _⟩ => show c.val = 0 + c.val * (0 + 1); omega
    · unfold hwc
      refine (transpose_apply _ _ transposes_S256x512x512_S512x512x256_1_2_0 _
        (ix3 c (⟨a.val - 1, by omega⟩ : Fin 512) (⟨b.val - 1, by omega⟩ : Fin 512)) (fun bb => ?_)).trans ?_
      · match bb with
        | ⟨0, _⟩ => rfl
        | ⟨1, _⟩ => rfl
        | ⟨2, _⟩ => rfl
      · refine shapeCast_apply x0 shapeCasts_S1x256x512x512_S256x512x512 _
          (ix4 (0 : Fin 1) c (⟨a.val - 1, by omega⟩ : Fin 512) (⟨b.val - 1, by omega⟩ : Fin 512)) ?_
        rewrite [Shape.rowMajor_val_four, Shape.rowMajor_val_three]
        show ((0 * 256 + c.val) * 512 + (a.val - 1)) * 512 + (b.val - 1) = (c.val * 512 + (a.val - 1)) * 512 + (b.val - 1)
        omega
  · rw [dif_neg h]
    by_cases h2 : 1 ≤ a.val ∧ a.val ≤ 512
    · refine (pad_apply_of_not_inside _ _ _ (hwc (F := Ideal) x0) _ _ _ (ix3 a b c) (1 : Fin 3) ?_).trans rfl
      show ¬(1 ≤ b.val ∧ (b.val - 1) % (0 + 1) = 0 ∧ (b.val - 1) / (0 + 1) < 512)
      omega
    · refine (pad_apply_of_not_inside _ _ _ (hwc (F := Ideal) x0) _ _ _ (ix3 a b c) (0 : Fin 3) ?_).trans rfl
      show ¬(1 ≤ a.val ∧ (a.val - 1) % (0 + 1) = 0 ∧ (a.val - 1) / (0 + 1) < 512)
      omega

/-- A wrapped index at (site, tap): 514 added to the word at (tap, site) where it is negative. -/
theorem wrapped_apply (x : (⟨S9x65536, .i32⟩ : BufTy).Contents (Elt Ideal)) (n : Fin 65536) (t : Fin 9) :
    wrapped (F := Ideal) x (ix2 n t)
      = Scalar.select (IntOp.cmpi .slt (x (ix2 t n)) 0#32) (IntOp.addi (x (ix2 t n)) 514#32) (x (ix2 t n)) := by
  have e : sites (F := Ideal) x (ix2 n t) = x (ix2 t n) := by
    unfold sites
    refine transpose_apply _ x _ (ix2 n t) (ix2 t n) (fun b => ?_)
    match b with
    | ⟨0, _⟩ => rfl
    | ⟨1, _⟩ => rfl
  show Scalar.select (IntOp.cmpi .slt (sites (F := Ideal) x (ix2 n t)) _) (IntOp.addi (sites (F := Ideal) x (ix2 n t)) _) (sites (F := Ideal) x (ix2 n t)) = _
  rw [e]
  rfl

/-- A unit-axis broadcast of a [site, tap] array at (n, t, 0) is the array at (n, t). -/
theorem unitAxis_apply (y : (⟨S65536x9, .i32⟩ : BufTy).Contents (Elt Ideal)) (n : Fin 65536) (t : Fin 9) :
    broadcastInDim S65536x9x1 ![0, 1] bcast_S65536x9_S65536x9x1_0_1 y (ix3 n t (0 : Fin 1)) = y (ix2 n t) :=
  broadcastInDim_apply _ bcast_S65536x9_S65536x9x1_0_1 y (ix3 n t (0 : Fin 1)) (ix2 n t) (fun a => match a with
    | ⟨0, _⟩ => by show n.val = if (65536 : Nat) = 1 then 0 else n.val; rw [if_neg (by decide)]
    | ⟨1, _⟩ => by show t.val = if (9 : Nat) = 1 then 0 else t.val; rw [if_neg (by decide)])

/-- The pair array's first component at (n, t) is the wrapped row index … -/
theorem pairs_fst (x2 x3 : (⟨S9x65536, .i32⟩ : BufTy).Contents (Elt Ideal)) (n : Fin 65536) (t : Fin 9) :
    pairs (F := Ideal) x2 x3 (ix3 n t (0 : Fin 2)) = wrapped (F := Ideal) x2 (ix2 n t) := by
  unfold pairs
  refine (concatenate_pair_apply_left (s₁ := S65536x9x1) (s₂ := S65536x9x1) (2 : Fin 3) _ _ _ (ix3 n t (0 : Fin 2)) rfl (ix3 n t (0 : Fin 1)) (fun b => ?_)).trans
    (unitAxis_apply _ n t)
  match b with
  | ⟨0, _⟩ => rfl
  | ⟨1, _⟩ => rfl
  | ⟨2, _⟩ => rfl

/-- … and its second the wrapped column index. -/
theorem pairs_snd (x2 x3 : (⟨S9x65536, .i32⟩ : BufTy).Contents (Elt Ideal)) (n : Fin 65536) (t : Fin 9) :
    pairs (F := Ideal) x2 x3 (ix3 n t (1 : Fin 2)) = wrapped (F := Ideal) x3 (ix2 n t) := by
  unfold pairs
  refine (concatenate_pair_apply_right (s₁ := S65536x9x1) (s₂ := S65536x9x1) (2 : Fin 3) _ _ _ (ix3 n t (1 : Fin 2)) rfl rfl (ix3 n t (0 : Fin 1)) (fun b hb => ?_) rfl).trans
    (unitAxis_apply _ n t)
  match b with
  | ⟨0, _⟩ => rfl
  | ⟨1, _⟩ => rfl
  | ⟨2, _⟩ => exact absurd rfl hb

/-- THE LEFT MATRIX at row `n` and column `k = t · 256 + c`: the bordered map of channel `c` at the positions the index
    words for tap `t` of site `n` name. -/
theorem gathered_apply (x0 : (⟨S1x256x512x512, .f32⟩ : BufTy).Contents (Elt Ideal)) (x2 x3 : (⟨S9x65536, .i32⟩ : BufTy).Contents (Elt Ideal))
    (n : Fin 65536) (t : Fin 9) (c : Fin 256) (k : Fin 2304) (hk : k.val = t.val * 256 + c.val) :
    gathered (F := Ideal) x0 x2 x3 (ix2 n k) = bordered zeroPad x0 c (posF (x2 (ix2 t n))) (posF (x3 (ix2 t n))) := by
  have hn := n.isLt; have ht := t.isLt; have hc := c.isLt
  unfold gathered
  refine (shapeCast_apply _ shapeCasts_S65536x9x256_S65536x2304 (ix2 n k) (ix3 n t c) ?_).trans ?_
  · rewrite [Shape.rowMajor_val_three, Shape.rowMajor_val_two]
    show (n.val * 9 + t.val) * 256 + c.val = n.val * 2304 + k.val
    omega
  · rw [gather_apply, borderedHwc_apply, pairs_fst, pairs_snd, wrapped_apply, wrapped_apply]
    rfl

end Cert.KernelIdeal.HostRead

end
-- ==== Proof.KernelRun.lean ====
/-
  The kernel program's result is the convolution `Cert.SparseConv.conv`.

  The region leaves the product of the gathered matrix and the weights' matrix, [site, output channel]; the one operation
  after it transposes that to [output channel, site]. Entry (n, co) of the product is
      Σ_{k < 2304} gathered[n, k] · weights[k, co],
  and with `k = t · 256 + c` its term is (bordered map of channel c at tap t of site n) · weight[co, c, t / 3, t % 3] — the
  convolution's term with its two factors exchanged. So the product's entry is the convolution's, and the program's
  result, the transpose, is the convolution.
-/
import proofs.«141959_j87806311399783_2_alg».proof.Proof.KernelArray
import proofs.«141959_j87806311399783_2_alg».proof.Proof.KernelHost
import proofs.«141959_j87806311399783_2_alg».proof.Proof.Spec
import Idealize.ShloMosaic.Lib.StableHlo.Run

noncomputable section

open scoped BigOperators

namespace Cert.KernelIdeal.Result

open Cert.KernelIdeal Cert.KernelIdeal.Gen Cert.KernelIdeal.HostRead Idealize.ShloMosaic Idealize.ShloMosaic.TcCoe Idealize.SL.Sem
open Idealize.ShloMosaic.StableHlo Idealize.ShloMosaic.ValueIdx Cert.SparseConv
open Idealize.ShloMosaic.Pipeline (Dat)

/-- THE PRODUCT'S ENTRY at site `n` and output channel `co` is the convolution's at (co, n). -/
theorem prod_apply (x0 : (⟨S1x256x512x512, .f32⟩ : BufTy).Contents (Elt Ideal)) (x1 : (⟨S256x256x3x3, .f32⟩ : BufTy).Contents (Elt Ideal))
    (x2 x3 : (⟨S9x65536, .i32⟩ : BufTy).Contents (Elt Ideal)) (n : Fin 65536) (co : Fin 256) :
    Product.prod (gathered (F := Ideal) x0 x2 x3) (weights (F := Ideal) x1) (ix2 n co) = conv zeroPad x0 x1 x2 x3 (ix2 co n) := by
  unfold Product.prod
  rw [sum_fin_mul 9 256 2304 rfl]
  show _ = ∑ t : Fin 9, ∑ c : Fin 256, term zeroPad x0 x1 x2 x3 co n t c
  refine Finset.sum_congr rfl fun t _ => Finset.sum_congr rfl fun c _ => ?_
  show gathered (F := Ideal) x0 x2 x3 (ix2 n (⟨t.val * 256 + c.val, _⟩ : Fin 2304))
      * weights (F := Ideal) x1 (ix2 (⟨t.val * 256 + c.val, _⟩ : Fin 2304) co) = _
  rw [gathered_apply x0 x2 x3 n t c _ rfl, weights_apply x1 co t c _ rfl]
  unfold term
  exact mul_comm _ _

variable (m : (ℓ : Loc nD τ sig) → Buf (Elt Ideal) ℓ) (ρ : Dev nD → PrngReg)

/-- The region's output array, in terms of the argument arrays. -/
theorem final_args (c : Dev nD) :
    (dats m 0 c).arrAt 2 cfg0.N
      = Product.prod (gathered (F := Ideal) (m ((c : Thread nD τ).loc main_arg0)) (m ((c : Thread nD τ).loc main_arg2)) (m ((c : Thread nD τ).loc main_arg3)))
          (weights (F := Ideal) (m ((c : Thread nD τ).loc main_arg1))) :=
  (Product.final m c).trans (congrArg₂ Product.prod (V_gathered m c) (V_weights m c))

/-- What the operation after the region leaves in the result buffer: the region's output array transposed. -/
theorem tail_eq (c : Dev nD) :
    Pipeline.afterTail₀ cfgs (dats m) 0 (V0 m) [hostOps1] c main_v25
      = transpose S256x65536 [1, 0] ((dats m 0 c).arrAt 2 cfg0.N) transposes_S65536x256_S256x65536_1_0 := by
  unfold Pipeline.afterTail₀
  show StableHlo.after hostOps1 _ (Proc.devRef .tc main_v25) = _
  after_results
  exact congrArg (fun y => transpose S256x65536 [1, 0] y transposes_S65536x256_S256x65536_1_0)
    (Pipeline.withArrays_arr spec0 launch0.win.arr_inj c _ _ 2)

/-- THE RESULT BUFFER after the program is the convolution of the argument arrays. -/
theorem result_eq (c : Dev nD) :
    Pipeline.afterTail₀ cfgs (dats m) 0 (V0 m) [hostOps1] c main_v25
      = conv zeroPad (m ((c : Thread nD τ).loc main_arg0)) (m ((c : Thread nD τ).loc main_arg1))
          (m ((c : Thread nD τ).loc main_arg2)) (m ((c : Thread nD τ).loc main_arg3)) := by
  rw [tail_eq, final_args]
  funext i
  obtain ⟨co, n, rfl⟩ : ∃ (co : Fin 256) (n : Fin 65536), i = ix2 co n := ⟨i 0, i 1, eq_ix2 i⟩
  refine (transpose_apply _ _ transposes_S65536x256_S256x65536_1_0 (ix2 co n) (ix2 n co) (fun b => ?_)).trans
    (prod_apply _ _ _ _ n co)
  match b with
  | ⟨0, _⟩ => rfl
  | ⟨1, _⟩ => rfl

/-- THE KERNEL PROGRAM'S RUN: every weakly fair execution terminates with the result buffer at the convolution of the
    argument arrays and the argument arrays unchanged. -/
theorem run : θ_run defs (onTc (τ := τ) (main (F := Ideal))) ⟨m, fun _ => 0, ρ⟩ fun r => ∀ c : Dev nD,
      r.2.mem ((c.tc : Thread nD τ).loc main_v25)
        = conv zeroPad (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A sparse 3 × 3 convolution computed two ways.

  Both programs take a feature map [1, 256, 512, 512], weights [256, 256, 3, 3] and two index arrays [9, 65536] giving, for
  each of 65536 sites and each of the 9 taps, a row and a column of the feature map bordered by one cell of zeros.
  Both compute, for output channel co and site n,
      out[co, n] = Σ_{t < 9} Σ_{c < 256} weight[co, c, t / 3, t % 3] · P[c, H(t, n), W(t, n)]
  (`Cert.SparseConv.conv`: P the bordered map, H and W the wrapped and clamped index words).

  The reference gathers P channel-major, views the result as a 2304 × 65536 matrix with rows c · 9 + t, and multiplies the
  weights, viewed 256 × 2304, by it. The kernel program lays P out channel-last, gathers it into a 65536 × 2304 matrix with
  columns t · 256 + c, permutes the weights to match, multiplies block by block of 2048 sites on a grid of 32 points, and
  transposes the product. On the extended reals a change of float format is the identity and a matrix product is the plain
  sum over the contraction index, so each side's entry is a sum of the same 2304 terms — indexed c · 9 + t on one side and
  t · 256 + c on the other, with the two factors of each term in the other order. Splitting each contraction index into
  (tap, channel) and exchanging the two finite sums joins them; addition and multiplication of extended reals are
  commutative and associative, so no finiteness of the inputs is used.

  The idealized kernel is the kernel's own text read on the extended reals (nothing was rewritten), so the preservation
  claim is trivial.
-/
import proofs.«141959_j87806311399783_2_alg».proof.Defs
import proofs.«141959_j87806311399783_2_alg».proof.Proof.Gen.Kernel
import proofs.«141959_j87806311399783_2_alg».proof.Proof.Gen.Kernel.Skeleton
import proofs.«141959_j87806311399783_2_alg».proof.Proof.Gen.Kernel.Launch
import proofs.«141959_j87806311399783_2_alg».proof.Proof.Gen.Kernel.Points
import proofs.«141959_j87806311399783_2_alg».proof.Proof.Gen.Kernel.Frame
import proofs.«141959_j87806311399783_2_alg».proof.Proof.Gen.KernelIdeal
import proofs.«141959_j87806311399783_2_alg».proof.Proof.Gen.KernelIdeal.Skeleton
import proofs.«141959_j87806311399783_2_alg».proof.Proof.Gen.KernelIdeal.Launch
import proofs.«141959_j87806311399783_2_alg».proof.Proof.Gen.KernelIdeal.Points
import proofs.«141959_j87806311399783_2_alg».proof.Proof.Gen.KernelIdeal.Frame
import proofs.«141959_j87806311399783_2_alg».proof.Proof.Gen.ReferenceIdeal
import proofs.«141959_j87806311399783_2_alg».proof.Proof.Gen.ReferenceIdeal.Run
import proofs.«141959_j87806311399783_2_alg».proof.Proof.Gen.ReferenceIdeal.Read
import proofs.«141959_j87806311399783_2_alg».proof.Proof.Gen.Pre_finite_inputs
import proofs.«141959_j87806311399783_2_alg».proof.Proof.Spec
import proofs.«141959_j87806311399783_2_alg».proof.Proof.RefValue
import proofs.«141959_j87806311399783_2_alg».proof.Proof.KernelRun
import Idealize.ShloMosaic.Adequacy
import Idealize.ShloMosaic.Init

noncomputable section

namespace Cert.Proof

open Idealize.ShloMosaic Idealize.ShloMosaic.TcCoe Idealize.SL.Sem Cert.SparseConv

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the arguments, both programs end with the convolution of the arguments in their result. -/
theorem algebraic : Cert.algebraic_KernelIdeal_ReferenceIdeal := by
  intro m ρ m' ρ' _ hagree
  refine ⟨fun c => conv zeroPad (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
